-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S1 : Shape := ⟨1, ![1]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S1x10000x128 .f32) (main_arg1 : FVec F S10000x10000 .f32) (main_arg2 : FVec F S128x128 .f32) (main_arg3 : FVec F S128 .f32) (main_arg4 : FVec F S1 .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S1 : Shape := ⟨1, ![1]⟩
abbrev S10000x128 : Shape := ⟨2, ![10000, 128]⟩
abbrev S1x128 : Shape := ⟨2, ![1, 128]⟩
abbrev S1x1 : Shape := ⟨2, ![1, 1]⟩
abbrev S400x10000 : Shape := ⟨2, ![400, 10000]⟩
abbrev S400x128 : Shape := ⟨2, ![400, 128]⟩

abbrev nBuf : Space → Nat
  | .hbm => 10
  | .vmem => 9
  | .smem => 0
  | _ => 0

abbrev bufTy : (tb : Table) → Fin (tcTables nBuf tb) → BufTy
  | .hbm, ⟨0, _⟩ => ⟨S1x10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1, .f32⟩
  | .hbm, ⟨5, _⟩ => ⟨S10000x128, .f32⟩
  | .hbm, ⟨6, _⟩ => ⟨S1x128, .f32⟩
  | .hbm, ⟨7, _⟩ => ⟨S1x1, .f32⟩
  | .hbm, ⟨8, _⟩ => ⟨S10000x128, .f32⟩
  | .hbm, ⟨9, _⟩ => ⟨S1x10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S1x1, .f32⟩
  | .local _ .vmem, ⟨4, _⟩ => ⟨S400x10000, .f32⟩
  | .local _ .vmem, ⟨5, _⟩ => ⟨S400x10000, .f32⟩
  | .local _ .vmem, ⟨6, _⟩ => ⟨S400x128, .f32⟩
  | .local _ .vmem, ⟨7, _⟩ => ⟨S400x128, .f32⟩
  | .local _ .vmem, ⟨8, _⟩ => ⟨S10000x128, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x10000x128_S10000x128 : S1x10000x128.ShapeCasts S10000x128
  shapeCasts_S128_S1x128 : S128.ShapeCasts S1x128
  shapeCasts_S1_S1x1 : S1.ShapeCasts S1x1
  shapeCasts_S10000x128_S1x10000x128 : S10000x128.ShapeCasts S1x10000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S400x10000_S400x10000_0_0 : ∀ a, (![0, 0] : Fin 2 → Nat) a + S400x10000.size a ≤ S400x10000.size a
  h_S400x10000 : 0 < S400x10000.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S400x128_S400x128_0_0 : ∀ a, (![0, 0] : Fin 2 → Nat) a + S400x128.size a ≤ S400x128.size a
  h_S400x128 : 0 < S400x128.numel
  dot_S10000x128_S128x128_S10000x128_1_1_0_0_n_n_wf : DotDims.WF S10000x128 S128x128 S10000x128 [1] [1] [0] [0] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x10000.size a ≤ S10000x10000.size a
  hwx0_4 : ∀ i : grid0.Coords, EltTy.bits .f32 = 32 ∨ (Rect.block (s := S10000x10000) S400x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_call0_v0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S400x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S1 : Shape := ⟨1, ![1]⟩
abbrev S1x1x128 : Shape := ⟨3, ![1, 1, 128]⟩
abbrev S10000x128 : Shape := ⟨2, ![10000, 128]⟩
abbrev S_ : Shape := ⟨0, ![]⟩
abbrev S1x1x1 : Shape := ⟨3, ![1, 1, 1]⟩

abbrev nBuf : Space → Nat
  | .hbm => 19
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1, .f32⟩
  | .hbm, ⟨5, _⟩ => ⟨S1x10000x128, .f32⟩
  | .hbm, ⟨6, _⟩ => ⟨S1x1x128, .f32⟩
  | .hbm, ⟨7, _⟩ => ⟨S1x10000x128, .f32⟩
  | .hbm, ⟨8, _⟩ => ⟨S1x10000x128, .f32⟩
  | .hbm, ⟨9, _⟩ => ⟨S10000x128, .f32⟩
  | .hbm, ⟨10, _⟩ => ⟨S10000x128, .f32⟩
  | .hbm, ⟨11, _⟩ => ⟨S1x10000x128, .f32⟩
  | .hbm, ⟨12, _⟩ => ⟨S_, .f32⟩
  | .hbm, ⟨13, _⟩ => ⟨S1x10000x128, .f32⟩
  | .hbm, ⟨14, _⟩ => ⟨S1x10000x128, .i1⟩
  | .hbm, ⟨15, _⟩ => ⟨S1x1x1, .f32⟩
  | .hbm, ⟨16, _⟩ => ⟨S1x10000x128, .f32⟩
  | .hbm, ⟨17, _⟩ => ⟨S1x10000x128, .f32⟩
  | .hbm, ⟨18, _⟩ => ⟨S1x10000x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x10000x128_0_1_2 : S1x1x128.BroadcastsInDim S1x10000x128 (![0, 1, 2] : Fin 3 → Fin S1x10000x128.rank)
  shapeCasts_S1x10000x128_S10000x128 : S1x10000x128.ShapeCasts S10000x128
  bcast_S10000x128_S1x10000x128_1_2 : S10000x128.BroadcastsInDim S1x10000x128 (![1, 2] : Fin 2 → Fin S1x10000x128.rank)
  bcast_S_S1x10000x128 : S_.BroadcastsInDim S1x10000x128 (![] : Fin 0 → Fin S1x10000x128.rank)
  bcast_S1_S1x1x1_2 : S1.BroadcastsInDim S1x1x1 (![2] : Fin 1 → Fin S1x1x1.rank)
  bcast_S1x1x1_S1x10000x128_0_1_2 : S1x1x1.BroadcastsInDim S1x10000x128 (![0, 1, 2] : Fin 3 → Fin S1x10000x128.rank)
  dot_S1x10000x128_S128x128_S1x10000x128_2_1_01_0_n_n_wf : DotDims.WF S1x10000x128 S128x128 S1x10000x128 [2] [1] [0, 1] [0] [] []
  dot_S10000x10000_S10000x128_S10000x128_1_0_0_1_n_n_wf : DotDims.WF S10000x10000 S10000x128 S10000x128 [1] [0] [0] [1] [] []

variable [Facts₀]

def dot_S1x10000x128_S128x128_S1x10000x128_2_1_01_0_n_n : DotDims S1x10000x128 S128x128 S1x10000x128 where
  lhsContracting := [2]
  rhsContracting := [1]
  lhsNonContracting := [0, 1]
  rhsNonContracting := [0]
  lhsBatch := []
  rhsBatch := []
  wf := dot_S1x10000x128_S128x128_S1x10000x128_2_1_01_0_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Pieces.lean ====
/-
  What one run of the kernel body leaves behind, as values of the blocks it loaded.

  The body has two cases. At the first grid point it fills the carried buffer with the hidden features (one store
  over the whole buffer), reads the buffer back, and stores the output block. At every later point it only reads the
  carried buffer and stores the output block. Each store covers its whole buffer through the rectangle at offset zero,
  and each load reads a whole buffer, so what a buffer ends holding is the stored value as a function of the loaded
  contents.
-/
import proofs.«146814_g38628935860365_cont_8to1_b_742_22_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- At the first grid point the carried buffer is left holding the hidden features of the loaded blocks: its one
    store covers it. -/
theorem carried_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x1 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (hc0 : cond0_0 i)
    (x0 : Vec F S10000x128 .f32) (x1 : Vec F S128x128 .f32) (x2 : Vec F S1x128 .f32) (x3 : Vec F S1x1 .f32) (x4 : Vec F S400x10000 .f32) :
    sout0_A_0 c i arg1 harg1 arg2 harg2 arg3 harg3 arg4 harg4 arg5 harg5 arg6 harg6 arg7 harg7 hc0 x0 x1 x2 x3 x4 = k0_pay1 x0 x1 x2 := by
  unfold sout0_A_0
  rw [View.read_writes_eq_canon _ _ _ (scover0_A_0 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz]
  simp only [View.readAt_eq_ld, harg1.read_unread, harg2.read_unread, harg3.read_unread,
    View.ld_unit_zero (S := S10000x128) hz, View.ld_unit_zero (S := S128x128) hz, View.ld_unit_zero (S := S1x128) hz]

/-- At the first grid point the output block is the rectified aggregation of the adjacency block against the hidden
    features just stored: the body reads the carried buffer back after filling it. -/
theorem out_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x1 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (hc0 : cond0_0 i)
    (x0 : Vec F S10000x128 .f32) (x1 : Vec F S128x128 .f32) (x2 : Vec F S1x128 .f32) (x3 : Vec F S1x1 .f32) (x4 : Vec F S400x10000 .f32) :
    out0_A_5 c i arg1 harg1 arg2 harg2 arg3 harg3 arg4 harg4 arg5 harg5 arg6 harg6 arg7 harg7 hc0 x0 x1 x2 x3 x4 = k0_pay2 x4 (k0_pay1 x0 x1 x2) x3 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz, View.readCov_unit_zero (S := S10000x128) _ hz]
  simp only [View.readAt_eq_ld, harg1.read_unread, harg2.read_unread, harg3.read_unread, harg4.read_unread, harg5.read_unread,
    View.ld_unit_zero (S := S10000x128) hz, View.ld_unit_zero (S := S128x128) hz, View.ld_unit_zero (S := S1x128) hz,
    View.ld_unit_zero (S := S1x1) hz, View.ld_unit_zero (S := S400x10000) hz]

/-- At a later grid point the output block is the rectified aggregation of the adjacency block against whatever the
    carried buffer holds. -/
theorem out_later (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x1 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (hc0 : ¬cond0_0 i)
    (x0 : Vec F S10000x128 .f32) (x1 : Vec F S128x128 .f32) (x2 : Vec F S1x128 .f32) (x3 : Vec F S1x1 .f32) (x4 : Vec F S400x10000 .f32) (xs0 : Vec F S10000x128 .f32) :
    out0_B_5 c i arg1 harg1 arg2 harg2 arg3 harg3 arg4 harg4 arg5 harg5 arg6 harg6 arg7 harg7 hc0 x0 x1 x2 x3 x4 xs0 = k0_pay2 x4 xs0 x3 := by
  unfold out0_B_5
  rw [View.read_writes_eq_canon _ _ _ (cover0_B_5 c i arg1 harg1 arg2 harg2 arg3 harg3 arg4 harg4 arg5 harg5 arg6 harg6 arg7 harg7 hc0 x0 x1 x2 x3 x4 xs0)]
  unfold kernelRun0_B
  dsimp only
  rw [View.canon_unit_zero hz]
  simp only [View.readAt_eq_ld, harg4.read_unread, harg5.read_unread, harg7.read_unread,
    View.ld_unit_zero (S := S10000x128) hz, View.ld_unit_zero (S := S1x1) hz, View.ld_unit_zero (S := S400x10000) hz]

end Cert.KernelIdeal.Pieces

end
-- ==== Proof.Carried.lean ====
/-
  What the output's staging buffer and the carried buffer hold after each grid point.

  The carried buffer is filled once, at the first point, with the hidden features of the blocks loaded there, and no
  later point stores into it: after every point it holds those same hidden features. So the output block a point
  leaves is the rectified aggregation of that point's adjacency block against the hidden features of the first
  point's blocks — at the first point because the body reads the buffer back after filling it, later because the
  buffer still holds what the first point left. By induction on the point.
-/
import proofs.«146814_g38628935860365_cont_8to1_b_742_22_alg».proof.Proof.Pieces

set_option maxRecDepth 16384

noncomputable section

namespace Cert.KernelIdeal.Carried

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The grid has a first point. -/
theorem zero_lt_N : 0 < cfg0.N := by rw [show cfg0.N = 25 from N_0]; decide

/-- The first grid point. -/
abbrev first : Fin cfg0.N := ⟨0, zero_lt_N⟩

/-- The hidden features as the first grid point computes them from the blocks it loads. -/
def hiddenBlock (c : Dev nD) : Vec F S10000x128 .f32 :=
  k0_pay1 (iblk m c 0 first) (iblk m c 1 first) (iblk m c 2 first)

/-- After the first point: the output's staging buffer holds the rectified aggregation of the first adjacency block
    against the hidden features just computed, and the carried buffer holds those hidden features. -/
theorem outsAt_first (c : Dev nD) (h : 0 < cfg0.N) :
    outsAt0 m c 0 h = (k0_pay2 (iblk m c 4 ⟨0, h⟩) (hiddenBlock m c) (iblk m c 3 ⟨0, h⟩), hiddenBlock m c) := by
  refine (outsAt0_A m c ⟨0, h⟩ rfl).trans ?_
  rw [Pieces.out_first, Pieces.carried_first]
  rfl

/-- A later point stores nothing into the carried buffer: if it held the first point's hidden features before, the
    output's staging buffer gets the rectified aggregation against them and the carried buffer still holds them. -/
theorem outsAt_step (c : Dev nD) (n : ℕ) (h : n + 1 < cfg0.N)
    (ih : (outsAt0 m c n (Nat.lt_of_succ_lt h)).2 = hiddenBlock m c) :
    outsAt0 m c (n + 1) h = (k0_pay2 (iblk m c 4 ⟨n + 1, h⟩) (hiddenBlock m c) (iblk m c 3 ⟨n + 1, h⟩), hiddenBlock m c) := by
  have hN : cfg0.N = 25 := N_0
  have hB : ¬(⟨n + 1, h⟩ : Fin cfg0.N).val % 25 = 0 := by dsimp only; omega
  have e : (outsAt0 m c ((⟨n + 1, h⟩ : Fin cfg0.N).val - 1) (Nat.lt_of_le_of_lt (Nat.sub_le _ _) (⟨n + 1, h⟩ : Fin cfg0.N).isLt)).2
      = hiddenBlock m c := ih
  refine (outsAt0_B m c ⟨n + 1, h⟩ hB).trans ?_
  rw [e]
  rw [Pieces.out_later]
  rfl

/-- After point `n`: the output's staging buffer holds the rectified aggregation of point `n`'s adjacency block against
    the first point's hidden features, and the carried buffer holds those hidden features. -/
theorem outsAt_eq (c : Dev nD) (n : ℕ) : ∀ h : n < cfg0.N,
    outsAt0 m c n h = (k0_pay2 (iblk m c 4 ⟨n, h⟩) (hiddenBlock m c) (iblk m c 3 ⟨n, h⟩), hiddenBlock m c) := by
  induction n with
  | zero => exact outsAt_first m c
  | succ n ih => exact fun h => outsAt_step m c n h (congrArg Prod.snd (ih (Nat.lt_of_succ_lt h)))

/-- The same at a grid point. -/
theorem outsAt_point (c : Dev nD) (t : Fin cfg0.N) :
    outsAt0 m c t.val t.isLt = (k0_pay2 (iblk m c 4 t) (hiddenBlock m c) (iblk m c 3 t), hiddenBlock m c) := by
  obtain ⟨n, h⟩ := t
  exact outsAt_eq m c n h

end Cert.KernelIdeal.Carried

end
-- ==== Proof.Spec.lean ====
/-
  One graph-convolution layer as a function on the extended reals.

  For node features `x` (one batch of N = 10000 nodes with D = 128 features), a dense adjacency matrix `adj` (N × N),
  a weight matrix `W` (D × D), a bias `b` (D) and one slope `a`:

    hidden k j      = (∑ f, x[0, k, f] · W[j, f]) + b[j]          -- the linear layer x · Wᵀ + b at node k, feature j
    aggregated r j  = ∑ k, adj[r, k] · hidden k j                 -- adj · hidden at node r, feature j
    layerAt r j     = prelu a (aggregated r j)                    -- s if s ≥ 0, else a · s

  Both programs compute exactly these sums of exactly these products, so no law of the extended reals beyond
  reading each operation at an index is needed, and none that asks for finite inputs.
-/
import Idealize.ShloMosaic.PureOps.Ideal
import Idealize.ShloMosaic.Lib.ValueIdx

noncomputable section

open scoped BigOperators

namespace GcnLayer

open Idealize.ShloMosaic Idealize.ShloMosaic.ValueIdx

/-- The node features' shape [1, N, D]. -/
abbrev SX : Shape := ⟨3, ![1, 10000, 128]⟩
/-- The adjacency matrix's shape [N, N]. -/
abbrev SAdj : Shape := ⟨2, ![10000, 10000]⟩
/-- The weight matrix's shape [D, D]. -/
abbrev SW : Shape := ⟨2, ![128, 128]⟩
/-- The bias's shape [D]. -/
abbrev SB : Shape := ⟨1, ![128]⟩
/-- The slope's shape [1]. -/
abbrev SA : Shape := ⟨1, ![1]⟩
/-- The shape [N, D] of the hidden features and of the aggregated ones. -/
abbrev SH : Shape := ⟨2, ![10000, 128]⟩

/-- The linear layer at node `k`, feature `j`: row `k` of `x` against row `j` of `W`, plus the bias. -/
def hidden (x : SX.Idx → EReal) (W : SW.Idx → EReal) (b : SB.Idx → EReal) (k : Fin 10000) (j : Fin 128) : EReal :=
  (∑ f : Fin 128, x (ix3 (0 : Fin 1) k f) * W (ix2 j f)) + b (ix1 j)

/-- The neighbourhood sum at node `r`, feature `j`: row `r` of `adj` against column `j` of the hidden features. -/
def aggregated (x : SX.Idx → EReal) (adj : SAdj.Idx → EReal) (W : SW.Idx → EReal) (b : SB.Idx → EReal)
    (r : Fin 10000) (j : Fin 128) : EReal :=
  ∑ k : Fin 10000, adj (ix2 r k) * hidden x W b k j

/-- The parametric rectifier: `s` where `s ≥ 0`, `a · s` elsewhere (the comparison is the extended reals' order, against
    the real number zero as its 32-bit pattern denotes it). -/
def prelu (a s : EReal) : EReal :=
  Scalar.select (Ideal.cmp .oge s (Ideal.ofBits .f32 0x00000000#32)) s (a * s)

/-- The layer's output at node `r`, feature `j`. -/
def layerAt (x : SX.Idx → EReal) (adj : SAdj.Idx → EReal) (W : SW.Idx → EReal) (b : SB.Idx → EReal) (a : SA.Idx → EReal)
    (r : Fin 10000) (j : Fin 128) : EReal :=
  prelu (a (ix1 (0 : Fin 1))) (aggregated x adj W b r j)

/-- The output as an [N, D] array. -/
def layer (x : SX.Idx → EReal) (adj : SAdj.Idx → EReal) (W : SW.Idx → EReal) (b : SB.Idx → EReal) (a : SA.Idx → EReal) :
    SH.Idx → EReal :=
  fun i => layerAt x adj W b a (i 0) (i 1)

/-- The output as a [1, N, D] array: the same numbers under a leading unit axis. -/
def layerBatched (x : SX.Idx → EReal) (adj : SAdj.Idx → EReal) (W : SW.Idx → EReal) (b : SB.Idx → EReal) (a : SA.Idx → EReal) :
    SX.Idx → EReal :=
  fun i => layerAt x adj W b a (i 1) (i 2)

/-- A rectifier of equal arguments, however the arguments are spelt. -/
theorem prelu_congr {a a' s s' : EReal} (ha : a' = a) (hs : s' = s) : prelu a' s' = prelu a s := by
  rw [ha, hs]

end GcnLayer

end
-- ==== Proof.Payload.lean ====
/-
  The kernel body's two stored values, read at one entry over the extended reals.

  The body stores twice. At the first grid point it fills its carried buffer with the hidden features: a matrix
  product of the node features with the weight matrix, both contracted over their feature axis, onto a zero
  accumulator, plus the bias row spread over the rows. At every point it stores one 400-row block of the output: the
  product of a 400-row block of the adjacency matrix with the carried hidden features, onto a zero accumulator, then the
  parametric rectifier with the slope read from a 1 × 1 block. At an entry each matrix product is the sum, over the one
  contracted coordinate, of the products of the operands' entries; the other operations act entry by entry.
-/
import proofs.«146814_g38628935860365_cont_8to1_b_742_22_alg».proof.Proof.Gen.KernelIdeal.Skeleton
import proofs.«146814_g38628935860365_cont_8to1_b_742_22_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The linear layer's matrix product, features against features. -/
abbrev dLin : DotDims S10000x128 S128x128 S10000x128 := dot_S10000x128_S128x128_S10000x128_1_1_0_0_n_n
/-- The aggregation's matrix product, a block of adjacency rows against the hidden features. -/
abbrev dAgg : DotDims S400x10000 S10000x128 S400x128 := dot_S400x10000_S10000x128_S400x128_1_0_0_1_n_n

/-- The linear layer's product at node `k`, feature `j`: the sum over the input feature `f` of `x[k, f] · w[j, f]`. -/
theorem linear_apply (x : FVec Ideal S10000x128 .f32) (w : FVec Ideal S128x128 .f32) (k : Fin 10000) (j : Fin 128) :
    FloatOps.matmul dLin none x w (constant (F := Ideal) S10000x128 .f32 0x00000000#32) (ix2 k j)
      = ∑ f : Fin 128, x (ix2 k f) * w (ix2 j f) := by
  rw [Ideal.matmul_constant_zero_apply, ← Equiv.sum_comp (contrEquiv1 dLin 128 rfl rfl).symm]
  refine Finset.sum_congr rfl fun f _ => ?_
  have hk := contrEquiv1_symm_val dLin 128 rfl rfl f
  have el : dLin.lhsIdx (ix2 k j) ((contrEquiv1 dLin 128 rfl rfl).symm f) = ix2 k f := funext fun a => Fin.ext (by
    match a with
    | ⟨0, _⟩ =>
      show (dLin.lhsIdx (ix2 k j) _ 0).val = k.val
      unfold DotDims.lhsIdx
      rw [dif_neg (show ¬(0 : Fin S10000x128.rank) ∈ dLin.lhsBatch by decide), dif_pos (show (0 : Fin S10000x128.rank) ∈ dLin.lhsNonContracting by decide)]
      rfl
    | ⟨1, _⟩ => exact (dLin.lhsIdx_val_of_single rfl (ix2 k j) _).trans hk)
  have er : dLin.rhsIdx (ix2 k j) ((contrEquiv1 dLin 128 rfl rfl).symm f) = ix2 j f := funext fun a => Fin.ext (by
    match a with
    | ⟨0, _⟩ =>
      show (dLin.rhsIdx (ix2 k j) _ 0).val = j.val
      unfold DotDims.rhsIdx
      rw [dif_neg (show ¬(0 : Fin S128x128.rank) ∈ dLin.rhsBatch by decide), dif_pos (show (0 : Fin S128x128.rank) ∈ dLin.rhsNonContracting by decide)]
      rfl
    | ⟨1, _⟩ => exact (dLin.rhsIdx_val_of_single rfl (ix2 k j) _).trans hk)
  rw [el, er]

/-- The aggregation's product at row `p` of the block, feature `q`: the sum over the node `k` of `adj[p, k] · h[k, q]`. -/
theorem aggregate_apply (adj : FVec Ideal S400x10000 .f32) (h : FVec Ideal S10000x128 .f32) (p : Fin 400) (q : Fin 128) :
    FloatOps.matmul dAgg none adj h (constant (F := Ideal) S400x128 .f32 0x00000000#32) (ix2 p q)
      = ∑ k : Fin 10000, adj (ix2 p k) * h (ix2 k q) := by
  rw [Ideal.matmul_constant_zero_apply, ← Equiv.sum_comp (contrEquiv1 dAgg 10000 rfl rfl).symm]
  refine Finset.sum_congr rfl fun k _ => ?_
  have hk := contrEquiv1_symm_val dAgg 10000 rfl rfl k
  have el : dAgg.lhsIdx (ix2 p q) ((contrEquiv1 dAgg 10000 rfl rfl).symm k) = ix2 p k := funext fun a => Fin.ext (by
    match a with
    | ⟨0, _⟩ =>
      show (dAgg.lhsIdx (ix2 p q) _ 0).val = p.val
      unfold DotDims.lhsIdx
      rw [dif_neg (show ¬(0 : Fin S400x10000.rank) ∈ dAgg.lhsBatch by decide), dif_pos (show (0 : Fin S400x10000.rank) ∈ dAgg.lhsNonContracting by decide)]
      rfl
    | ⟨1, _⟩ => exact (dAgg.lhsIdx_val_of_single rfl (ix2 p q) _).trans hk)
  have er : dAgg.rhsIdx (ix2 p q) ((contrEquiv1 dAgg 10000 rfl rfl).symm k) = ix2 k q := funext fun a => Fin.ext (by
    match a with
    | ⟨0, _⟩ => exact (dAgg.rhsIdx_val_of_single rfl (ix2 p q) _).trans hk
    | ⟨1, _⟩ =>
      show (dAgg.rhsIdx (ix2 p q) _ 1).val = q.val
      unfold DotDims.rhsIdx
      rw [dif_neg (show ¬(1 : Fin S10000x128.rank) ∈ dAgg.rhsBatch by decide), dif_pos (show (1 : Fin S10000x128.rank) ∈ dAgg.rhsNonContracting by decide)]
      rfl)
  rw [el, er]

/-- The value stored into the carried buffer, at node `k`, feature `j`: the linear layer of the loaded blocks. -/
theorem hidden_payload_apply (x : Vec Ideal S10000x128 .f32) (w : Vec Ideal S128x128 .f32) (b : Vec Ideal S1x128 .f32)
    (k : Fin 10000) (j : Fin 128) :
    k0_pay1 (F := Ideal) x w b (ix2 k j) = (∑ f : Fin 128, x (ix2 k f) * w (ix2 j f)) + b (ix2 (0 : Fin 1) j) := by
  have e1 := linear_apply x w k j
  have e2 : broadcastTo S10000x128 b broadcasts_S1x128_S10000x128 (ix2 k j) = b (ix2 (0 : Fin 1) j) :=
    broadcastTo_1b_ab_apply b broadcasts_S1x128_S10000x128 k j
  unfold k0_pay1
  simp only [shapeCast_self]
  exact congrArg₂ (fun u v : EReal => u + v) e1 e2

/-- The value stored into the output block, at row `p`, feature `q`: the rectifier, with the slope read from the 1 × 1
    block, of the block's row `p` of adjacency against column `q` of the carried hidden features. -/
theorem output_payload_apply (adj : Vec Ideal S400x10000 .f32) (h : Vec Ideal S10000x128 .f32) (a : Vec Ideal S1x1 .f32)
    (p : Fin 400) (q : Fin 128) :
    k0_pay2 (F := Ideal) adj h a (ix2 p q)
      = GcnLayer.prelu (a (ix2 (0 : Fin 1) (0 : Fin 1))) (∑ k : Fin 10000, adj (ix2 p k) * h (ix2 k q)) := by
  have e1 := aggregate_apply adj h p q
  have e2 : extractAt ![0, 0] a inpos_S1x1_p0_0 = a (ix2 (0 : Fin 1) (0 : Fin 1)) :=
    congrArg a (funext fun d => by match d with | ⟨0, _⟩ => rfl | ⟨1, _⟩ => rfl)
  unfold k0_pay2
  exact GcnLayer.prelu_congr e2 e1

end Cert.KernelIdeal.Body

end
-- ==== Proof.Blocks.lean ====
/-
  The output array after the run is the layer, block by block.

  Before the launch the program only re-shapes three arguments: the node features lose their batch axis, the bias
  becomes a row and the slope a 1 × 1 matrix. The features, the weights, the bias row and the slope are each passed
  whole to every grid point; grid point `t` gets rows 400·t … 400·t + 399 of the adjacency matrix and writes back rows
  400·t … 400·t + 399 of the output. So what point `t` writes back is that block of rows of ONE array, the layer of
  the arguments; the 25 blocks tile the 10000 rows; and the last line of the program only puts the batch axis back.
-/
import proofs.«146814_g38628935860365_cont_8to1_b_742_22_alg».proof.Proof.Carried
import proofs.«146814_g38628935860365_cont_8to1_b_742_22_alg».proof.Proof.Payload
import Idealize.ShloMosaic.Lib.StableHlo.Run
import Idealize.ShloMosaic.Lib.Pipeline.Value
import Idealize.ShloMosaic.Lib.ValueLayout

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the launch finds -/

/-- The node features without their batch axis: entry (k, f) is the argument's entry (0, k, f). -/
theorem features_entry (c : Dev nD) (k : Fin 10000) (f : Fin 128) :
    (V m c main_call0_v0 : Vec Ideal S10000x128 .f32) (ix2 k f) = (m ((c : Thread nD τ).loc main_arg0)) (ix3 (0 : Fin 1) k f) := by
  have e : (V m c main_call0_v0 : Vec Ideal S10000x128 .f32)
      = shapeCast S10000x128 (m ((c : Thread nD τ).loc main_arg0)) shapeCasts_S1x10000x128_S10000x128 := by
    show StableHlo.after hostOps0 (fun b => m (c, b)) (Proc.devRef .tc main_call0_v0) = _
    after_results
    rfl
  rw [e]
  exact shapeCast_1ab_ab_apply _ _ k f

/-- The bias as a row: entry (0, j) is the argument's entry j. -/
theorem bias_entry (c : Dev nD) (u : Fin 1) (j : Fin 128) :
    (V m c main_call0_v1 : Vec Ideal S1x128 .f32) (ix2 u j) = (m ((c : Thread nD τ).loc main_arg3)) (ix1 j) := by
  have e : (V m c main_call0_v1 : Vec Ideal S1x128 .f32)
      = shapeCast S1x128 (m ((c : Thread nD τ).loc main_arg3)) shapeCasts_S128_S1x128 := by
    show StableHlo.after hostOps0 (fun b => m (c, b)) (Proc.devRef .tc main_call0_v1) = _
    after_results
    rfl
  rw [e]
  exact shapeCast_a_1a_apply _ _ u j

/-- The slope as a 1 × 1 matrix: its entry is the argument's one entry. -/
theorem slope_entry (c : Dev nD) (u v : Fin 1) :
    (V m c main_call0_v2 : Vec Ideal S1x1 .f32) (ix2 u v) = (m ((c : Thread nD τ).loc main_arg4)) (ix1 v) := by
  have e : (V m c main_call0_v2 : Vec Ideal S1x1 .f32)
      = shapeCast S1x1 (m ((c : Thread nD τ).loc main_arg4)) shapeCasts_S1_S1x1 := by
    show StableHlo.after hostOps0 (fun b => m (c, b)) (Proc.devRef .tc main_call0_v2) = _
    after_results
    rfl
  rw [e]
  exact shapeCast_a_1a_apply _ _ u v

/-! ## The blocks a grid point loads -/

/-- The printed block-index maps, decided over the 25 grid points: the features, the weights, the bias row and the slope
    are passed whole (block index zero on both axes); the adjacency matrix and the output move one block of rows per
    point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- A grid point is one of 25. -/
theorem point_lt (t : Fin cfg0.N) : t.val < 25 := lt_of_lt_of_eq t.isLt (show cfg0.N = 25 from N_0)

/-- Row `p` of grid point `t`'s block of rows, as a row of the whole matrix. -/
def row (t : Fin cfg0.N) (p : Fin 400) : Fin 10000 :=
  ⟨400 * t.val + p.val, by have := point_lt t; have := p.isLt; omega⟩

/-- The features' block at any point is the whole array. -/
theorem features_block (c : Dev nD) (t : Fin cfg0.N) (k : Fin 10000) (f : Fin 128) :
    (iblk m c 0 t : Vec Ideal S10000x128 .f32) (ix2 k f) = (m ((c : Thread nD τ).loc main_arg0)) (ix3 (0 : Fin 1) k f) := by
  obtain ⟨e0, e1, -⟩ := idx_facts t
  refine Eq.trans ?_ (features_entry m c k f)
  unfold iblk
  rw [View.read_apply]
  show V m c main_call0_v0 (((cfg0.win 0).blk t).view.emb (ix2 k f)) = V m c main_call0_v0 (ix2 k f)
  refine congrArg (V m c main_call0_v0) (funext fun d => Fin.ext ?_)
  match d with
  | ⟨0, _⟩ => show win0_0.index t (0 : Fin 2) * 10000 + 1 * k.val = k.val; rw [e0]; omega
  | ⟨1, _⟩ => show win0_0.index t (1 : Fin 2) * 128 + 1 * f.val = f.val; rw [e1]; omega

/-- The weights' block at any point is the whole matrix. -/
theorem weight_block (c : Dev nD) (t : Fin cfg0.N) (j : Fin 128) (f : Fin 128) :
    (iblk m c 1 t : Vec Ideal S128x128 .f32) (ix2 j f) = (m ((c : Thread nD τ).loc main_arg2)) (ix2 j f) := by
  obtain ⟨-, -, e0, e1, -⟩ := idx_facts t
  unfold iblk
  rw [View.read_apply]
  show V m c main_arg2 (((cfg0.win 1).blk t).view.emb (ix2 j f)) = _
  rw [V_main_arg2]
  refine congrArg (m ((c : Thread nD τ).loc main_arg2)) (funext fun d => Fin.ext ?_)
  match d with
  | ⟨0, _⟩ => show win0_1.index t (0 : Fin 2) * 128 + 1 * j.val = j.val; rw [e0]; omega
  | ⟨1, _⟩ => show win0_1.index t (1 : Fin 2) * 128 + 1 * f.val = f.val; rw [e1]; omega

/-- The bias row's block at any point is the whole row. -/
theorem bias_block (c : Dev nD) (t : Fin cfg0.N) (u : Fin 1) (j : Fin 128) :
    (iblk m c 2 t : Vec Ideal S1x128 .f32) (ix2 u j) = (m ((c : Thread nD τ).loc main_arg3)) (ix1 j) := by
  obtain ⟨-, -, -, -, e0, e1, -⟩ := idx_facts t
  refine Eq.trans ?_ (bias_entry m c u j)
  unfold iblk
  rw [View.read_apply]
  show V m c main_call0_v1 (((cfg0.win 2).blk t).view.emb (ix2 u j)) = V m c main_call0_v1 (ix2 u j)
  refine congrArg (V m c main_call0_v1) (funext fun d => Fin.ext ?_)
  match d with
  | ⟨0, _⟩ => show win0_2.index t (0 : Fin 2) * 1 + 1 * u.val = u.val; rw [e0]; omega
  | ⟨1, _⟩ => show win0_2.index t (1 : Fin 2) * 128 + 1 * j.val = j.val; rw [e1]; omega

/-- The slope's block at any point is its one entry. -/
theorem slope_block (c : Dev nD) (t : Fin cfg0.N) (u v : Fin 1) :
    (iblk m c 3 t : Vec Ideal S1x1 .f32) (ix2 u v) = (m ((c : Thread nD τ).loc main_arg4)) (ix1 v) := by
  obtain ⟨-, -, -, -, -, -, e0, e1, -⟩ := idx_facts t
  refine Eq.trans ?_ (slope_entry m c u v)
  unfold iblk
  rw [View.read_apply]
  show V m c main_call0_v2 (((cfg0.win 3).blk t).view.emb (ix2 u v)) = V m c main_call0_v2 (ix2 u v)
  refine congrArg (V m c main_call0_v2) (funext fun d => Fin.ext ?_)
  match d with
  | ⟨0, _⟩ => show win0_3.index t (0 : Fin 2) * 1 + 1 * u.val = u.val; rw [e0]; omega
  | ⟨1, _⟩ => show win0_3.index t (1 : Fin 2) * 1 + 1 * v.val = v.val; rw [e1]; omega

/-- The adjacency block at point `t`: row `p` of the block is row `400·t + p` of the matrix. -/
theorem adjacency_block (c : Dev nD) (t : Fin cfg0.N) (p : Fin 400) (k : Fin 10000) :
    (iblk m c 4 t : Vec Ideal S400x10000 .f32) (ix2 p k) = (m ((c : Thread nD τ).loc main_arg1)) (ix2 (row t p) k) := by
  obtain ⟨-, -, -, -, -, -, -, -, e0, e1, -⟩ := idx_facts t
  unfold iblk
  rw [View.read_apply]
  show V m c main_arg1 (((cfg0.win 4).blk t).view.emb (ix2 p k)) = _
  rw [V_main_arg1]
  refine congrArg (m ((c : Thread nD τ).loc main_arg1)) (funext fun d => Fin.ext ?_)
  match d with
  | ⟨0, _⟩ => show win0_4.index t (0 : Fin 2) * 400 + 1 * p.val = 400 * t.val + p.val; rw [e0]; omega
  | ⟨1, _⟩ => show win0_4.index t (1 : Fin 2) * 10000 + 1 * k.val = k.val; rw [e1]; omega

/-! ## What a grid point writes back -/

/-- The carried hidden features are the linear layer of the arguments. -/
theorem hidden_eq (c : Dev nD) (k : Fin 10000) (j : Fin 128) :
    Carried.hiddenBlock m c (ix2 k j) = GcnLayer.hidden (m ((c : Thread nD τ).loc main_arg0)) (m ((c : Thread nD τ).loc main_arg2)) (m ((c : Thread nD τ).loc main_arg3)) k j := by
  unfold Carried.hiddenBlock
  refine (Body.hidden_payload_apply (iblk m c 0 Carried.first) (iblk m c 1 Carried.first) (iblk m c 2 Carried.first) k j).trans ?_
  unfold GcnLayer.hidden
  refine congrArg₂ (fun u v : EReal => u + v) (Finset.sum_congr rfl fun f _ => ?_) ?_
  · exact congrArg₂ (fun u v : EReal => u * v) (features_block m c Carried.first k f) (weight_block m c Carried.first j f)
  · exact bias_block m c Carried.first (0 : Fin 1) j

/-- An output block's entry (p, q), from blocks that are what the layer reads: row `r` of the adjacency matrix, the
    hidden features, the slope. -/
theorem output_entry (adjB : Vec Ideal S400x10000 .f32) (hB : Vec Ideal S10000x128 .f32) (aB : Vec Ideal S1x1 .f32)
    (x : GcnLayer.SX.Idx → EReal) (adj : GcnLayer.SAdj.Idx → EReal) (W : GcnLayer.SW.Idx → EReal)
    (b : GcnLayer.SB.Idx → EReal) (a : GcnLayer.SA.Idx → EReal) (r : Fin 10000) (z : S400x128.Idx) (p : Fin 400) (q : Fin 128)
    (hz : z = ix2 p q)
    (hadj : ∀ k : Fin 10000, adjB (ix2 p k) = adj (ix2 r k))
    (hh : ∀ k : Fin 10000, hB (ix2 k q) = GcnLayer.hidden x W b k q)
    (ha : aB (ix2 (0 : Fin 1) (0 : Fin 1)) = a (ix1 (0 : Fin 1))) :
    k0_pay2 (F := Ideal) adjB hB aB z = GcnLayer.layerAt x adj W b a r q := by
  subst hz
  refine (Body.output_payload_apply adjB hB aB p q).trans ?_
  unfold GcnLayer.layerAt GcnLayer.aggregated
  exact GcnLayer.prelu_congr ha (Finset.sum_congr rfl fun k _ => congrArg₂ (fun u v : EReal => u * v) (hadj k) (hh k))

/-- The layer of the arguments, as contents of the launch's output array. -/
def layerArray (c : Dev nD) : Buf (Elt Ideal) ((c : Thread nD τ).loc main_call0_v3) :=
  GcnLayer.layer (m ((c : Thread nD τ).loc main_arg0)) (m ((c : Thread nD τ).loc main_arg1)) (m ((c : Thread nD τ).loc main_arg2)) (m ((c : Thread nD τ).loc main_arg3)) (m ((c : Thread nD τ).loc main_arg4))

/-- After point `t` the output's staging buffer holds the rectified aggregation of point `t`'s adjacency block against
    the carried hidden features. -/
theorem after_eq (c : Dev nD) (t : Fin cfg0.N) :
    (dats m 0 c).after 5 t = k0_pay2 (iblk m c 4 t) (Carried.hiddenBlock m c) (iblk m c 3 t) := by
  rw [after0_5, Carried.outsAt_point]

/-- WHAT POINT `t` WRITES BACK is rows 400·t … 400·t + 399 of the layer. -/
theorem flushed_eq (c : Dev nD) (t : Fin cfg0.N) :
    (dats m 0 c).flushed 5 t = ((cfg0.win 5).blk t).view.read (Elt Ideal) (layerArray m c) := by
  obtain ⟨-, -, -, -, -, -, -, -, -, -, e0, e1⟩ := idx_facts t
  show (cfg0.win 5).cut (grid0.coords t) ((dats m 0 c).after 5 t) = _
  rw [after_eq]
  funext y
  have hp : (y 0).val < 400 := (y 0).isLt
  have hq : (y 1).val < 128 := (y 1).isLt
  have hz : (cfg0.win 5).xinj (grid0.coords t) y = ix2 (⟨(y 0).val, hp⟩ : Fin 400) (⟨(y 1).val, hq⟩ : Fin 128) :=
    funext fun d => by match d with | ⟨0, _⟩ => rfl | ⟨1, _⟩ => rfl
  show k0_pay2 (iblk m c 4 t) (Carried.hiddenBlock m c) (iblk m c 3 t) ((cfg0.win 5).xinj (grid0.coords t) y)
    = layerArray m c (((cfg0.win 5).blk t).view.emb y)
  refine (output_entry (iblk m c 4 t) (Carried.hiddenBlock m c) (iblk m c 3 t) (m ((c : Thread nD τ).loc main_arg0)) (m ((c : Thread nD τ).loc main_arg1)) (m ((c : Thread nD τ).loc main_arg2)) (m ((c : Thread nD τ).loc main_arg3)) (m ((c : Thread nD τ).loc main_arg4))
    (row t ⟨(y 0).val, hp⟩) ((cfg0.win 5).xinj (grid0.coords t) y) ⟨(y 0).val, hp⟩ ⟨(y 1).val, hq⟩ hz
    (fun k => adjacency_block m c t ⟨(y 0).val, hp⟩ k) (fun k => hidden_eq m c k ⟨(y 1).val, hq⟩)
    (slope_block m c t (0 : Fin 1) (0 : Fin 1))).trans ?_
  show GcnLayer.layerAt (m ((c : Thread nD τ).loc main_arg0)) (m ((c : Thread nD τ).loc main_arg1)) (m ((c : Thread nD τ).loc main_arg2)) (m ((c : Thread nD τ).loc main_arg3)) (m ((c : Thread nD τ).loc main_arg4)) (row t ⟨(y 0).val, hp⟩) ⟨(y 1).val, hq⟩
    = GcnLayer.layerAt (m ((c : Thread nD τ).loc main_arg0)) (m ((c : Thread nD τ).loc main_arg1)) (m ((c : Thread nD τ).loc main_arg2)) (m ((c : Thread nD τ).loc main_arg3)) (m ((c : Thread nD τ).loc main_arg4)) ((((cfg0.win 5).blk t).view.emb y) 0) ((((cfg0.win 5).blk t).view.emb y) 1)
  refine congrArg₂ (GcnLayer.layerAt (m ((c : Thread nD τ).loc main_arg0)) (m ((c : Thread nD τ).loc main_arg1)) (m ((c : Thread nD τ).loc main_arg2)) (m ((c : Thread nD τ).loc main_arg3)) (m ((c : Thread nD τ).loc main_arg4))) (Fin.ext ?_) (Fin.ext ?_)
  · show 400 * t.val + (y 0).val = win0_5.index t (0 : Fin 2) * 400 + 1 * (y 0).val
    rw [e0]; omega
  · show (y 1).val = win0_5.index t (1 : Fin 2) * 128 + 1 * (y 1).val
    rw [e1]; omega

/-! ## The output array after the run -/

/-- A row-and-feature index is in point `t`'s block iff each coordinate is in the block's range. -/
theorem mem_blk (t : Fin cfg0.N) (i : S10000x128.Idx) :
    i ∈ ((cfg0.win 5).blk t).view.set ↔ ∀ a : Fin 2, win0_5.index t a * S400x128.size a ≤ (i a).val
      ∧ (i a).val < win0_5.index t a * S400x128.size a + S400x128.size a := by
  show i ∈ ((View.whole main_call0_v3).slice (win0_5.rect t)).set ↔ _
  rw [View.set_slice_whole, Rect.mem_set_unit]
  exact Iff.rfl

/-- The 25 blocks of 400 rows tile the 10000 rows: row `r` is in the block of point `r / 400`. -/
theorem cover (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  have ht : (i 0).val / 400 < cfg0.N := by rw [show cfg0.N = 25 from N_0]; omega
  obtain ⟨-, -, -, -, -, -, -, -, -, -, e0, e1⟩ := idx_facts ⟨(i 0).val / 400, ht⟩
  have e0' : win0_5.index ⟨(i 0).val / 400, ht⟩ (0 : Fin 2) = (i 0).val / 400 := e0
  refine ⟨⟨(i 0).val / 400, ht⟩, flush0_5 _, ?_⟩
  rw [mem_blk]
  intro a
  match a with
  | ⟨0, _⟩ =>
    show win0_5.index ⟨(i 0).val / 400, ht⟩ (0 : Fin 2) * 400 ≤ (i 0).val
      ∧ (i 0).val < win0_5.index ⟨(i 0).val / 400, ht⟩ (0 : Fin 2) * 400 + 400
    rw [e0']; omega
  | ⟨1, _⟩ =>
    show win0_5.index ⟨(i 0).val / 400, ht⟩ (1 : Fin 2) * 128 ≤ (i 1).val
      ∧ (i 1).val < win0_5.index ⟨(i 0).val / 400, ht⟩ (1 : Fin 2) * 128 + 128
    rw [e1]; omega

/-- So the launch's output array ends holding the layer of the arguments. -/
theorem final (c : Dev nD) : (dats m 0 c).arrAt 5 cfg0.N = layerArray m c :=
  (dats m 0 c).arrAt_eq_of_cover 5 (layerArray m c) (fun t _ => flushed_eq m c t) (fun i => cover i)

/-- The program's last line puts the batch axis back: its result is the layer under a leading unit axis. -/
theorem result_eq (c : Dev nD) :
    Pipeline.afterTail₀ cfgs (dats m) 0 (V0 m) [hostOps1] c main_v0 = GcnLayer.layerBatched (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  show StableHlo.after hostOps1 _ (Proc.devRef .tc main_v0) = _
  after_results
  refine Eq.trans (b := shapeCast S1x10000x128 (layerArray m c) shapeCasts_S10000x128_S1x10000x128) ?_ ?_
  · exact congrArg (fun z => shapeCast S1x10000x128 z shapeCasts_S10000x128_S1x10000x128)
      ((Pipeline.withArrays_arr spec0 launch0.win.arr_inj c _ _ 5).trans (final m c))
  · funext i
    obtain ⟨u, r, j, rfl⟩ : ∃ (u : Fin 1) (r : Fin 10000) (j : Fin 128), i = ix3 u r j := ⟨i 0, i 1, i 2, eq_ix3 i⟩
    exact shapeCast_ab_1ab_apply (layerArray m c) shapeCasts_S10000x128_S1x10000x128 u r j

/-! ## The run, read -/

/-- Every weakly fair execution of the program terminates with its result at the layer of the arguments, under a
    leading unit axis, and the arguments unchanged. -/
theorem run : θ_run defs (onTc (τ := τ) (main (F := Ideal))) ⟨m, fun _ => 0, ρ⟩ fun r => ∀ c : Dev nD,
      r.2.mem ((c : Thread nD τ).loc main_v0) = GcnLayer.layerBatched (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).1 4).trans (((dats m 0 c).arrAt_in 4 rfl _).trans ((A_eq m c 4).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Blocks

end
-- ==== Proof.Reference.lean ====
/-
  The reference program computes the layer.

  Its operations, read one at a time at an entry: the first product contracts the features of node `k` against row
  `j` of the weight matrix; the bias is spread over the batch and node axes and added; the batch axis is dropped;
  the second product contracts row `r` of the adjacency matrix against column `j` of the hidden features; the batch
  axis is put back; the slope and the zero are spread over every entry; the comparison, the product with the slope
  and the selection act entry by entry. Composed, entry (0, r, j) of the result is the layer at node `r`, feature `j`.
-/
import proofs.«146814_g38628935860365_cont_8to1_b_742_22_alg».proof.Proof.Gen.ReferenceIdeal.Read
import proofs.«146814_g38628935860365_cont_8to1_b_742_22_alg».proof.Proof.Spec

noncomputable section

open scoped BigOperators

namespace Cert.ReferenceIdeal.Layer

open Cert.ReferenceIdeal Cert.ReferenceIdeal.Read Idealize.ShloMosaic Idealize.ShloMosaic.ValueIdx

variable (x : (⟨S1x10000x128, .f32⟩ : BufTy).Contents (Elt Ideal)) (adj : (⟨S10000x10000, .f32⟩ : BufTy).Contents (Elt Ideal))
  (W : (⟨S128x128, .f32⟩ : BufTy).Contents (Elt Ideal)) (b : (⟨S128, .f32⟩ : BufTy).Contents (Elt Ideal))
  (a : (⟨S1, .f32⟩ : BufTy).Contents (Elt Ideal))

/-- Dropping the batch axis reads entry (k, j) at (0, k, j): the same row-major position. -/
theorem drop_batch_idx (k : Fin 10000) (j : Fin 128) : idx_main_v4 (ix2 k j) = ix3 (0 : Fin 1) k j :=
  funext fun d => Fin.ext (by
    have hk := k.isLt
    have hj := j.isLt
    match d with
    | ⟨0, _⟩ => rfl
    | ⟨1, _⟩ => show (k.val * 128 + j.val) / 128 % 10000 = k.val; omega
    | ⟨2, _⟩ => show (k.val * 128 + j.val) % 128 = j.val; omega)

/-- The hidden features the reference computes, with the batch axis dropped, at node `k`, feature `j`. -/
theorem hidden_apply (k : Fin 10000) (j : Fin 128) :
    val_main_v4 (F := Ideal) x W b (ix2 k j) = GcnLayer.hidden x W b k j := by
  rw [val_main_v4_apply, drop_batch_idx, val_main_v3_apply, val_main_v0_apply, val_main_v2_apply, val_main_v1_apply]
  have el : ∀ f : Fin 128, lidx_main_v0 (ix3 (0 : Fin 1) k j) f = ix3 (0 : Fin 1) k f := fun f =>
    funext fun d => by match d with | ⟨0, _⟩ => rfl | ⟨1, _⟩ => rfl | ⟨2, _⟩ => rfl
  have er : ∀ f : Fin 128, ridx_main_v0 (ix3 (0 : Fin 1) k j) f = ix2 j f := fun f =>
    funext fun d => by match d with | ⟨0, _⟩ => rfl | ⟨1, _⟩ => rfl
  have eb : idx_main_v1 (idx_main_v2 (ix3 (0 : Fin 1) k j)) = ix1 j :=
    funext fun d => by match d with | ⟨0, _⟩ => rfl
  simp only [el, er, eb]
  rfl

/-- The aggregation the reference computes, with the batch axis put back, at (u, r, j). -/
theorem aggregated_apply (u : Fin 1) (r : Fin 10000) (j : Fin 128) :
    val_main_v6 (F := Ideal) x adj W b (ix3 u r j) = GcnLayer.aggregated x adj W b r j := by
  rw [val_main_v6_apply, val_main_v5_apply]
  unfold GcnLayer.aggregated
  refine Finset.sum_congr rfl fun k _ => ?_
  have el : lidx_main_v5 (idx_main_v6 (ix3 u r j)) k = ix2 r k :=
    funext fun d => by match d with | ⟨0, _⟩ => rfl | ⟨1, _⟩ => rfl
  have er : ridx_main_v5 (idx_main_v6 (ix3 u r j)) k = ix2 k j :=
    funext fun d => by match d with | ⟨0, _⟩ => rfl | ⟨1, _⟩ => rfl
  rw [el, er, hidden_apply]

/-- The reference's result is the layer under a leading unit axis. -/
theorem result_eq : val_main_v12 (F := Ideal) x adj W b a = GcnLayer.layerBatched x adj W b a := by
  funext i
  obtain ⟨u, r, j, rfl⟩ : ∃ (u : Fin 1) (r : Fin 10000) (j : Fin 128), i = ix3 u r j := ⟨i 0, i 1, i 2, eq_ix3 i⟩
  rw [val_main_v12_apply, val_main_v8_apply, val_main_v11_apply, val_main_v10_apply, val_main_v9_apply, val_main_v7_apply,
    val_main_cst_apply, aggregated_apply]
  have ea : idx_main_v9 (idx_main_v10 (ix3 u r j)) = ix1 (0 : Fin 1) :=
    funext fun d => by match d with | ⟨0, _⟩ => rfl
  rw [ea]
  rfl

end Cert.ReferenceIdeal.Layer

end
-- ==== Proof.lean ====
/-
  The kernel and its reference compute the same graph-convolution layer.

  The kernel keeps the hidden features `x · Wᵀ + b` in a buffer it fills at the first grid point, and at grid point `t`
  multiplies rows 400·t … 400·t + 399 of the adjacency matrix with them and applies the parametric rectifier; the
  reference does the two products and the rectifier on whole arrays. Over the extended reals each entry of either
  result is the same sum of the same products, pushed through the same comparison with zero: the layer of
  Proof/Spec.lean. No law beyond reading each operation at an entry is used, so the finiteness of the inputs is never
  opened.

  The frames of the two kernel programs are the generated frame certificates; the reference's frame is its generated
  run with the result forgotten; the idealization rewrote nothing, so `preserves` is trivial.
-/
import proofs.«146814_g38628935860365_cont_8to1_b_742_22_alg».proof.Defs
import proofs.«146814_g38628935860365_cont_8to1_b_742_22_alg».proof.Proof.Gen.Kernel
import proofs.«146814_g38628935860365_cont_8to1_b_742_22_alg».proof.Proof.Gen.Kernel.Frame
import proofs.«146814_g38628935860365_cont_8to1_b_742_22_alg».proof.Proof.Gen.KernelIdeal
import proofs.«146814_g38628935860365_cont_8to1_b_742_22_alg».proof.Proof.Gen.KernelIdeal.Frame
import proofs.«146814_g38628935860365_cont_8to1_b_742_22_alg».proof.Proof.Gen.ReferenceIdeal
import proofs.«146814_g38628935860365_cont_8to1_b_742_22_alg».proof.Proof.Gen.ReferenceIdeal.Read
import proofs.«146814_g38628935860365_cont_8to1_b_742_22_alg».proof.Proof.Gen.Pre_finite_inputs
import proofs.«146814_g38628935860365_cont_8to1_b_742_22_alg».proof.Proof.Blocks
import proofs.«146814_g38628935860365_cont_8to1_b_742_22_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the layer of those arguments. -/
theorem algebraic : Cert.algebraic_KernelIdeal_ReferenceIdeal := by
  intro m ρ m' ρ' _ hagree
  refine ⟨fun c => GcnLayer.layerBatched (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v12_eq _ _ _ _ _).trans (Cert.ReferenceIdeal.Layer.result_eq _ _ _ _ _)).trans ?_
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
